-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S8 : Shape := ⟨1, ![8]⟩
abbrev S2048x8 : Shape := ⟨2, ![2048, 8]⟩
abbrev S2048 : Shape := ⟨1, ![2048]⟩
abbrev S512x2048 : Shape := ⟨2, ![512, 2048]⟩
abbrev S512 : Shape := ⟨1, ![512]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8 : S_.BroadcastsInDim S8 (![] : Fin 0 → Fin S8.rank)
  reducesTo_S8_S_d0 : S8.ReducesTo [0] S_
  bcast_S_S2048x8 : S_.BroadcastsInDim S2048x8 (![] : Fin 0 → Fin S2048x8.rank)
  reducesTo_S2048x8_S_d0_1 : S2048x8.ReducesTo [0, 1] S_
  bcast_S_S2048 : S_.BroadcastsInDim S2048 (![] : Fin 0 → Fin S2048.rank)
  reducesTo_S2048_S_d0 : S2048.ReducesTo [0] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x2048 .f32) (main_arg5 : FVec F S512 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S512x2048 .f32 := Host.absf main_arg4
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S8x4096x512 .f32) (main_arg1 : FVec F S8 .f32) (main_arg2 : FVec F S2048x8 .f32) (main_arg3 : FVec F S2048 .f32) (main_arg4 : FVec F S512x2048 .f32) (main_arg5 : FVec F S512 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S2048x8 .f32 := Host.absf main_arg2
  let main_cst_2 : FVec F S_ .f32 := constant S_ .f32 0x7F800000#32
  let main_v10 : FVec F S2048x8 .f32 := broadcastInDim S2048x8 ![] bcast_S_S2048x8 main_cst_2
  let main_v11 : IVec S2048x8 1 := cmpf .olt main_v9 main_v10
  let main_c_3 : IVec S_ 1 := constantI S_ 1 1#1
  let main_v12 : IVec S_ 1 := (fun x v => Host.reduce IntOp.andi x v reducesTo_S2048x8_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_v13 main_v16
-- ==== Kernel.lean ====
abbrev S8x4096x512 : Shape := ⟨3, ![8, 4096, 512]⟩
abbrev S8 : Shape := ⟨1, ![8]⟩
abbrev S2048x8 : Shape := ⟨2, ![2048, 8]⟩
abbrev S2048 : Shape := ⟨1, ![2048]⟩
abbrev S512x2048 : Shape := ⟨2, ![512, 2048]⟩
abbrev S512 : Shape := ⟨1, ![512]⟩
abbrev S8x2048 : Shape := ⟨2, ![8, 2048]⟩
abbrev S8x1 : Shape := ⟨2, ![8, 1]⟩
abbrev S2048x512 : Shape := ⟨2, ![2048, 512]⟩
abbrev S1x2048 : Shape := ⟨2, ![1, 2048]⟩
abbrev S1x512 : Shape := ⟨2, ![1, 512]⟩
abbrev S32768x512 : Shape := ⟨2, ![32768, 512]⟩
abbrev S1024x512 : Shape := ⟨2, ![1024, 512]⟩
abbrev S1024x8 : Shape := ⟨2, ![1024, 8]⟩
abbrev S1024x2048 : Shape := ⟨2, ![1024, 2048]⟩

abbrev nBuf : Space → Nat
  | .hbm => 20
  | .vmem => 8
  | .smem => 0
  | _ => 0

abbrev bufTy : (tb : Table) → Fin (tcTables nBuf tb) → BufTy
  | .hbm, ⟨0, _⟩ => ⟨S8x4096x512, .f32⟩
  | .hbm, ⟨1, _⟩ => ⟨S8, .f32⟩
  | .hbm, ⟨2, _⟩ => ⟨S2048x8, .f32⟩
  | .hbm, ⟨3, _⟩ => ⟨S2048, .f32⟩
  | .hbm, ⟨4, _⟩ => ⟨S512x2048, .f32⟩
  | .hbm, ⟨5, _⟩ => ⟨S512, .f32⟩
  | .hbm, ⟨6, _⟩ => ⟨S8, .f32⟩
  | .hbm, ⟨7, _⟩ => ⟨S8x2048, .f32⟩
  | .hbm, ⟨8, _⟩ => ⟨S8x1, .f32⟩
  | .hbm, ⟨9, _⟩ => ⟨S8x2048, .f32⟩
  | .hbm, ⟨10, _⟩ => ⟨S8x2048, .f32⟩
  | .hbm, ⟨11, _⟩ => ⟨S8x2048, .bf16⟩
  | .hbm, ⟨12, _⟩ => ⟨S2048x512, .f32⟩
  | .hbm, ⟨13, _⟩ => ⟨S2048x512, .bf16⟩
  | .hbm, ⟨14, _⟩ => ⟨S1x2048, .f32⟩
  | .hbm, ⟨15, _⟩ => ⟨S1x2048, .bf16⟩
  | .hbm, ⟨16, _⟩ => ⟨S1x512, .f32⟩
  | .hbm, ⟨17, _⟩ => ⟨S32768x512, .f32⟩
  | .hbm, ⟨18, _⟩ => ⟨S32768x512, .f32⟩
  | .hbm, ⟨19, _⟩ => ⟨S8x4096x512, .f32⟩
  | .local _ .vmem, ⟨0, _⟩ => ⟨S1024x512, .f32⟩
  | .local _ .vmem, ⟨1, _⟩ => ⟨S1024x512, .f32⟩
  | .local _ .vmem, ⟨2, _⟩ => ⟨S8x2048, .bf16⟩
  | .local _ .vmem, ⟨3, _⟩ => ⟨S1x2048, .bf16⟩
  | .local _ .vmem, ⟨4, _⟩ => ⟨S2048x512, .bf16⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S2048x8_S8x2048_1_0 : S2048x8.Transposes [1, 0] S8x2048
  bcast_S8_S8x1_0 : S8.BroadcastsInDim S8x1 (![0] : Fin 1 → Fin S8x1.rank)
  bcast_S8x1_S8x2048_0_1 : S8x1.BroadcastsInDim S8x2048 (![0, 1] : Fin 2 → Fin S8x2048.rank)
  bitsLt_bf16_f32 : FTy.bits .bf16 < FTy.bits .f32
  transposes_S512x2048_S2048x512_1_0 : S512x2048.Transposes [1, 0] S2048x512
  shapeCasts_S2048_S1x2048 : S2048.ShapeCasts S1x2048
  shapeCasts_S512_S1x512 : S512.ShapeCasts S1x512
  shapeCasts_S8x4096x512_S32768x512 : S8x4096x512.ShapeCasts S32768x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  slices_S1024x512_o0_0_S1024x8 : S1024x512.Slices ![0, 0] S1024x8
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S32768x512_S8x4096x512 : S32768x512.ShapeCasts S8x4096x512
  dot_S1024x8_S8x2048_S1024x2048_1_0_0_1_n_n_wf : DotDims.WF S1024x8 S8x2048 S1024x2048 [1] [0] [0] [1] [] []
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x2048.size a ≤ S8x2048.size a
  hwx0_1 : ∀ i : grid0.Coords, EltTy.bits .bf16 = 32 ∨ (Rect.block (s := S8x2048) S8x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .bf16 = 32 ∨ (Rect.block (s := S1x2048) S1x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x512.size a
  hwx0_3 : ∀ i : grid0.Coords, EltTy.bits .bf16 = 32 ∨ (Rect.block (s := S2048x512) S2048x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S32768x512.size a
  hwx0_5 : ∀ i : grid0.Coords, EltTy.bits .f32 = 32 ∨ (Rect.block (s := S32768x512) S1024x512.size (cc0_transform_5 i) (hinb0_5 i)).WholeWords (EltTy.packing .f32)

variable [Facts₀]

def dot_S1024x8_S8x2048_S1024x2048_1_0_0_1_n_n : DotDims S1024x8 S8x2048 S1024x2048 where
  lhsContracting := [1]
  rhsContracting := [0]
  lhsNonContracting := [0]
  rhsNonContracting := [1]
  lhsBatch := []
  rhsBatch := []
  wf := dot_S1024x8_S8x2048_S1024x2048_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_v11) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S8 : Shape := ⟨1, ![8]⟩
abbrev S2048x8 : Shape := ⟨2, ![2048, 8]⟩
abbrev S2048 : Shape := ⟨1, ![2048]⟩
abbrev S512x2048 : Shape := ⟨2, ![512, 2048]⟩
abbrev S512 : Shape := ⟨1, ![512]⟩
abbrev S8x4096x8 : Shape := ⟨3, ![8, 4096, 8]⟩
abbrev S1x1x8 : Shape := ⟨3, ![1, 1, 8]⟩
abbrev S8x4096x2048 : Shape := ⟨3, ![8, 4096, 2048]⟩
abbrev S1x1x2048 : Shape := ⟨3, ![1, 1, 2048]⟩
abbrev S_ : Shape := ⟨0, ![]⟩
abbrev S1x1x512 : Shape := ⟨3, ![1, 1, 512]⟩

abbrev nBuf : Space → Nat
  | .hbm => 23
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8, .f32⟩
  | .hbm, ⟨2, _⟩ => ⟨S2048x8, .f32⟩
  | .hbm, ⟨3, _⟩ => ⟨S2048, .f32⟩
  | .hbm, ⟨4, _⟩ => ⟨S512x2048, .f32⟩
  | .hbm, ⟨5, _⟩ => ⟨S512, .f32⟩
  | .hbm, ⟨6, _⟩ => ⟨S8x4096x8, .f32⟩
  | .hbm, ⟨7, _⟩ => ⟨S8x4096x8, .f32⟩
  | .hbm, ⟨8, _⟩ => ⟨S8, .f32⟩
  | .hbm, ⟨9, _⟩ => ⟨S1x1x8, .f32⟩
  | .hbm, ⟨10, _⟩ => ⟨S8x4096x8, .f32⟩
  | .hbm, ⟨11, _⟩ => ⟨S8x4096x8, .f32⟩
  | .hbm, ⟨12, _⟩ => ⟨S8x4096x2048, .f32⟩
  | .hbm, ⟨13, _⟩ => ⟨S1x1x2048, .f32⟩
  | .hbm, ⟨14, _⟩ => ⟨S8x4096x2048, .f32⟩
  | .hbm, ⟨15, _⟩ => ⟨S8x4096x2048, .f32⟩
  | .hbm, ⟨16, _⟩ => ⟨S_, .f32⟩
  | .hbm, ⟨17, _⟩ => ⟨S8x4096x2048, .f32⟩
  | .hbm, ⟨18, _⟩ => ⟨S8x4096x2048, .f32⟩
  | .hbm, ⟨19, _⟩ => ⟨S8x4096x512, .f32⟩
  | .hbm, ⟨20, _⟩ => ⟨S1x1x512, .f32⟩
  | .hbm, ⟨21, _⟩ => ⟨S8x4096x512, .f32⟩
  | .hbm, ⟨22, _⟩ => ⟨S8x4096x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  slices_S8x4096x512_S8x4096x8_0_0_0 : S8x4096x512.Slices ![0, 0, 0] S8x4096x8
  bcast_S8_S1x1x8_2 : S8.BroadcastsInDim S1x1x8 (![2] : Fin 1 → Fin S1x1x8.rank)
  bcast_S1x1x8_S8x4096x8_0_1_2 : S1x1x8.BroadcastsInDim S8x4096x8 (![0, 1, 2] : Fin 3 → Fin S8x4096x8.rank)
  bcast_S2048_S1x1x2048_2 : S2048.BroadcastsInDim S1x1x2048 (![2] : Fin 1 → Fin S1x1x2048.rank)
  bcast_S1x1x2048_S8x4096x2048_0_1_2 : S1x1x2048.BroadcastsInDim S8x4096x2048 (![0, 1, 2] : Fin 3 → Fin S8x4096x2048.rank)
  bcast_S_S8x4096x2048 : S_.BroadcastsInDim S8x4096x2048 (![] : Fin 0 → Fin S8x4096x2048.rank)
  bcast_S512_S1x1x512_2 : S512.BroadcastsInDim S1x1x512 (![2] : Fin 1 → Fin S1x1x512.rank)
  bcast_S1x1x512_S8x4096x512_0_1_2 : S1x1x512.BroadcastsInDim S8x4096x512 (![0, 1, 2] : Fin 3 → Fin S8x4096x512.rank)
  dot_S8x4096x8_S2048x8_S8x4096x2048_2_1_01_0_n_n_wf : DotDims.WF S8x4096x8 S2048x8 S8x4096x2048 [2] [1] [0, 1] [0] [] []
  dot_S8x4096x2048_S512x2048_S8x4096x512_2_1_01_0_n_n_wf : DotDims.WF S8x4096x2048 S512x2048 S8x4096x512 [2] [1] [0, 1] [0] [] []

variable [Facts₀]

def dot_S8x4096x8_S2048x8_S8x4096x2048_2_1_01_0_n_n : DotDims S8x4096x8 S2048x8 S8x4096x2048 where
  lhsContracting := [2]
  rhsContracting := [1]
  lhsNonContracting := [0, 1]
  rhsNonContracting := [0]
  lhsBatch := []
  rhsBatch := []
  wf := dot_S8x4096x8_S2048x8_S8x4096x2048_2_1_01_0_n_n_wf
def dot_S8x4096x2048_S512x2048_S8x4096x512_2_1_01_0_n_n : DotDims S8x4096x2048 S512x2048 S8x4096x512 where
  lhsContracting := [2]
  rhsContracting := [1]
  lhsNonContracting := [0, 1]
  rhsNonContracting := [0]
  lhsBatch := []
  rhsBatch := []
  wf := dot_S8x4096x2048_S512x2048_S8x4096x512_2_1_01_0_n_n_wf

class Facts : Prop extends Facts₀ where

variable [Facts]
-- ==== Proof.FfnSpec.lean ====
/-
  The feed-forward head over the extended reals, one output entry at a time.

  A token (b, s) of the input x : [8, 4096, 512] is measured on its first eight coordinates: measurement q is
  cos (x b s q) * cos (theta q).  Hidden unit f of the token is the rectified affine form
  max (sum over q of measurement q * W1 f q + b1 f) 0, and output coordinate e of the token is
  sum over f of hidden f * W2 e f + b2 e.

  The same entry with the factor cos (theta q) attached to the weight instead of the measurement,
  cos (x b s q) * (W1 f q * cos (theta q)), is equal to it: the product of three extended reals does not depend on
  how it is grouped or ordered (multiplication on the extended reals is associative and commutative, infinities
  included), so no finiteness of any input is needed.
-/
import Idealize.ShloMosaic.PureOps.Ideal.Laws
import Idealize.ShloMosaic.Lib.ValueIdx

noncomputable section

open scoped BigOperators

namespace Cert.Ffn

open Idealize.ShloMosaic Idealize.ShloMosaic.ValueIdx

/-- One of the first eight coordinates of the 512-long embedding axis. -/
def col (q : Fin 8) : Fin 512 := ⟨q.val, by have := q.isLt; omega⟩

/-- Hidden unit f of token (b, s): the measurements cos x * cos theta weighted by row f of W1, shifted by b1 f,
    rectified. -/
def hidden (x : (⟨3, ![8, 4096, 512]⟩ : Shape).Idx → EReal) (θ : (⟨1, ![8]⟩ : Shape).Idx → EReal)
    (W1 : (⟨2, ![2048, 8]⟩ : Shape).Idx → EReal) (b1 : (⟨1, ![2048]⟩ : Shape).Idx → EReal)
    (b : Fin 8) (s : Fin 4096) (f : Fin 2048) : EReal :=
  max ((∑ q : Fin 8, (Ideal.cos (x (ix3 b s (col q))) * Ideal.cos (θ (ix1 q))) * W1 (ix2 f q)) + b1 (ix1 f)) 0

/-- The head's output: entry (b, s, e) is the hidden units of token (b, s) weighted by row e of W2, shifted by b2 e. -/
def ffn (x : (⟨3, ![8, 4096, 512]⟩ : Shape).Idx → EReal) (θ : (⟨1, ![8]⟩ : Shape).Idx → EReal)
    (W1 : (⟨2, ![2048, 8]⟩ : Shape).Idx → EReal) (b1 : (⟨1, ![2048]⟩ : Shape).Idx → EReal)
    (W2 : (⟨2, ![512, 2048]⟩ : Shape).Idx → EReal) (b2 : (⟨1, ![512]⟩ : Shape).Idx → EReal) :
    (⟨3, ![8, 4096, 512]⟩ : Shape).Idx → EReal := fun i =>
  (∑ f : Fin 2048, hidden x θ W1 b1 (i 0) (i 1) f * W2 (ix2 (i 2) f)) + b2 (ix1 (i 2))

/-- A measurement times a weight, grouped either way: a * (w * c) = (a * c) * w on the extended reals. -/
theorem regroup (a w c : EReal) : a * (w * c) = (a * c) * w := by
  rw [mul_comm w c, mul_assoc]

/-- Hidden unit f with cos theta folded into the weights is the hidden unit. -/
theorem hidden_folded (x : (⟨3, ![8, 4096, 512]⟩ : Shape).Idx → EReal) (θ : (⟨1, ![8]⟩ : Shape).Idx → EReal)
    (W1 : (⟨2, ![2048, 8]⟩ : Shape).Idx → EReal) (b1 : (⟨1, ![2048]⟩ : Shape).Idx → EReal)
    (b : Fin 8) (s : Fin 4096) (f : Fin 2048) :
    max ((∑ q : Fin 8, Ideal.cos (x (ix3 b s (col q))) * (W1 (ix2 f q) * Ideal.cos (θ (ix1 q)))) + b1 (ix1 f)) 0
      = hidden x θ W1 b1 b s f := by
  unfold hidden
  refine congrArg (fun z => max (z + b1 (ix1 f)) 0) (Finset.sum_congr rfl fun q _ => ?_)
  exact regroup _ _ _

/-- The zero word of the 16-bit format denotes zero. -/
theorem ofBits_zero_bf16 : Ideal.ofBits .bf16 0x0000#16 = 0 := by simp [Ideal.ofBits, Ideal.ieee]

end Cert.Ffn

end
-- ==== Proof.FfnReference.lean ====
/-
  The reference program computes the feed-forward head entry by entry.

  Read one operation at a time, entry (b, s, e) of the reference's result is the sum over the 2048 hidden units of
  max (dot + bias) 0 times W2 e f, plus b2 e, where the dot product runs over the eight measured coordinates
  cos (x b s q) * cos (theta q) against W1 f q.  The layout operations (the slice of the first eight coordinates,
  the broadcasts of theta, b1, b2 and of the zero of the rectifier) only choose which entry of an argument is read;
  the equations below say which.
-/
import proofs.«103058_j65481071395349_2_alg».proof.Proof.Gen.ReferenceIdeal.Read
import proofs.«103058_j65481071395349_2_alg».proof.Proof.FfnSpec

noncomputable section

open scoped BigOperators

namespace Cert.Ffn.Reference

open Idealize.ShloMosaic Idealize.ShloMosaic.ValueIdx Cert.ReferenceIdeal Cert.ReferenceIdeal.Read

/-- The slice reads x at (b, s, q), q one of the first eight coordinates. -/
theorem x_at (i : S8x4096x512.Idx) (k : Fin 2048) (q : Fin 8) :
    idx_main_v0 (lidx_main_v6 (lidx_main_v11 i k) q) = ix3 (i 0) (i 1) (col q) :=
  funext fun a => Fin.ext (by match a with | ⟨0, _⟩ => rfl | ⟨1, _⟩ => rfl | ⟨2, _⟩ => rfl)

/-- The broadcast of cos theta reads theta at q. -/
theorem theta_at (i : S8x4096x512.Idx) (k : Fin 2048) (q : Fin 8) :
    idx_main_v3 (idx_main_v4 (lidx_main_v6 (lidx_main_v11 i k) q)) = ix1 q :=
  funext fun a => Fin.ext (by match a with | ⟨0, _⟩ => rfl)

/-- The first contraction reads W1 at (f, q). -/
theorem w1_at (i : S8x4096x512.Idx) (k : Fin 2048) (q : Fin 8) :
    ridx_main_v6 (lidx_main_v11 i k) q = ix2 k q :=
  funext fun a => Fin.ext (by match a with | ⟨0, _⟩ => rfl | ⟨1, _⟩ => rfl)

/-- The broadcast of b1 reads it at f. -/
theorem b1_at (i : S8x4096x512.Idx) (k : Fin 2048) :
    idx_main_v7 (idx_main_v8 (lidx_main_v11 i k)) = ix1 k :=
  funext fun a => Fin.ext (by match a with | ⟨0, _⟩ => rfl)

/-- The second contraction reads W2 at (e, f). -/
theorem w2_at (i : S8x4096x512.Idx) (k : Fin 2048) : ridx_main_v11 i k = ix2 (i 2) k :=
  funext fun a => Fin.ext (by match a with | ⟨0, _⟩ => rfl | ⟨1, _⟩ => rfl)

/-- The broadcast of b2 reads it at e. -/
theorem b2_at (i : S8x4096x512.Idx) : idx_main_v12 (idx_main_v13 i) = ix1 (i 2) :=
  funext fun a => Fin.ext (by match a with | ⟨0, _⟩ => rfl)

/-- The reference's last stage is the head. -/
theorem stage_eq_ffn (x0 : S8x4096x512.Idx → EReal) (x1 : S8.Idx → EReal) (x2 : S2048x8.Idx → EReal)
    (x3 : S2048.Idx → EReal) (x4 : S512x2048.Idx → EReal) (x5 : S512.Idx → EReal) :
    val_main_v14 (F := Ideal) x0 x1 x2 x3 x4 x5 = ffn x0 x1 x2 x3 x4 x5 := by
  funext i
  rw [val_main_v14_apply, val_main_v11_apply, val_main_v13_apply, val_main_v12_apply, b2_at]
  unfold ffn
  refine congrArg (fun z => z + x5 (ix1 (i 2))) (Finset.sum_congr rfl fun k _ => ?_)
  rw [w2_at, val_main_v10_apply, val_main_v9_apply, val_main_v6_apply, val_main_v8_apply, val_main_v7_apply, b1_at,
    val_main_call0_v0_apply, val_main_call0_cst_apply]
  show max ((∑ q : Fin 8, val_main_v5 (F := Ideal) x0 x1 (lidx_main_v6 (lidx_main_v11 i k) q)
      * x2 (ridx_main_v6 (lidx_main_v11 i k) q)) + x3 (ix1 k)) (Ideal.ofBits .f32 0x00000000#32) * x4 (ix2 (i 2) k) = _
  rw [Ideal.ofBits_zero_f32]
  unfold hidden
  refine congrArg (fun z => max (z + x3 (ix1 k)) 0 * x4 (ix2 (i 2) k)) (Finset.sum_congr rfl fun q _ => ?_)
  rw [w1_at, val_main_v5_apply, val_main_v1_apply, val_main_v0_apply, x_at, val_main_v4_apply, val_main_v3_apply,
    val_main_v2_apply, theta_at]
  rfl

end Cert.Ffn.Reference

end
-- ==== Proof.LibBroadcastInDim2.lean ====
/-
  The host's `broadcast_in_dim` between ranks 1 and 2, read at an index given by its coordinates, for any sizes:
  a vector `[a]` as a column `[a, 1]` (dims = [0]) and as a row `[1, b]` (dims = [1]); a column `[a, 1]` along the second axis
  to `[a, b]` and a row `[1, b]` along the first axis to `[a, b]` (dims = [0, 1]).  Each is one instance of the library's
  read-at-an-index lemma for the operation, the coordinate arithmetic discharged once for all sizes.
-/
import Idealize.ShloMosaic.Lib.ValueIdx
import Idealize.ShloMosaic.Lib.Pipeline.Value

namespace Idealize.ShloMosaic.BroadcastInDim2

open Idealize.ShloMosaic Idealize.ShloMosaic.ValueIdx

variable {α : Type}

/-- A vector as a column: entry (p, 0) is the vector's entry p. -/
theorem vecToCol_apply {a : Nat} (v : (⟨1, ![a]⟩ : Shape).Idx → α)
    (h : (⟨1, ![a]⟩ : Shape).BroadcastsInDim ⟨2, ![a, 1]⟩ (![0] : Fin 1 → Fin 2)) (p : Fin a) (z : Fin 1) :
    broadcastInDim (⟨2, ![a, 1]⟩ : Shape) (![0] : Fin 1 → Fin 2) h v (ix2 p z) = v (ix1 p) :=
  broadcastInDim_apply (![0] : Fin 1 → Fin 2) h v (ix2 p z) (ix1 p) (fun d => match d with
    | ⟨0, _⟩ => by
        show p.val = if a = 1 then 0 else p.val
        by_cases ha : a = 1
        · rw [if_pos ha]; have := p.isLt; omega
        · rw [if_neg ha])

/-- A vector as a row: entry (0, q) is the vector's entry q. -/
theorem vecToRow_apply {b : Nat} (v : (⟨1, ![b]⟩ : Shape).Idx → α)
    (h : (⟨1, ![b]⟩ : Shape).BroadcastsInDim ⟨2, ![1, b]⟩ (![1] : Fin 1 → Fin 2)) (z : Fin 1) (q : Fin b) :
    broadcastInDim (⟨2, ![1, b]⟩ : Shape) (![1] : Fin 1 → Fin 2) h v (ix2 z q) = v (ix1 q) :=
  broadcastInDim_apply (![1] : Fin 1 → Fin 2) h v (ix2 z q) (ix1 q) (fun d => match d with
    | ⟨0, _⟩ => by
        show q.val = if b = 1 then 0 else q.val
        by_cases hb : b = 1
        · rw [if_pos hb]; have := q.isLt; omega
        · rw [if_neg hb])

/-- A column along the second axis: entry (p, q) is the column's entry (p, 0). -/
theorem colToMat_apply {a b : Nat} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 p (0 : Fin 1)) :=
  broadcastInDim_apply (![0, 1] : Fin 2 → Fin 2) h v (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row along the first axis: entry (p, q) is the row's entry (0, q). -/
theorem rowToMat_apply {a b : Nat} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 (0 : Fin 1) q) :=
  broadcastInDim_apply (![0, 1] : Fin 2 → Fin 2) h v (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.BroadcastInDim2
-- ==== Proof.LibRank4Layout.lean ====
/-
  Reshapes, the middle-axes transpose and the `broadcast_in_dim`s of an attention layer's host code, read at an index
  given by its coordinates, for any sizes.

  * Reshapes (a row-major re-indexing): the last axis split in two, `[a,b,n] → [a,b,c,d]` with n = c·d, and merged
    back; the first two axes merged, `[a,b,c] → [m,c]` with m = a·b, and split back.  Each is stated with the merged
    coordinate and the two split coordinates related by a hypothesis (j = r·d + t), so no division appears.
  * The transpose that swaps the two middle axes of a rank-4 array, `[a,b,c,d] → [a,c,b,d]` (permutation [0,2,1,3]).
  * `broadcast_in_dim`: a scalar to any shape; a vector `[n]` as `[1,1,n]` and that along both leading axes to
    `[a,b,n]`; a matrix `[a,b]` as `[a,b,1]` and that along the last axis to `[a,b,c]`; a rank-3 array `[a,c,d]` as
    `[a,1,c,d]` and that along axis 1 to `[a,b,c,d]`; a rank-3 array `[a,b,c]` as `[a,b,c,1]` and that along the
    last axis to `[a,b,c,d]`.
-/
import Idealize.ShloMosaic.Lib.ValueIdx
import Idealize.ShloMosaic.Lib.Pipeline.Value

namespace Cert.Lib.Rank4Layout

open Idealize.ShloMosaic Idealize.ShloMosaic.ValueIdx

variable {α : Type}

/-! ## Reshapes -/

/-- The last axis split: entry (p, q, r, t) of the result is entry (p, q, j) of the source, j = r·d + t. -/
theorem splitLast_apply {a b n c d : Nat} (v : (⟨3, ![a, b, n]⟩ : Shape).Idx → α)
    (h : (⟨3, ![a, b, n]⟩ : Shape).ShapeCasts ⟨4, ![a, b, c, d]⟩) (hn : n = c * d)
    (p : Fin a) (q : Fin b) (r : Fin c) (t : Fin d) (j : Fin n) (hj : j.val = r.val * d + t.val) :
    shapeCast (⟨4, ![a, b, c, d]⟩ : Shape) v h (ix4 p q r t) = v (ix3 p q j) := by
  refine shapeCast_apply v h (ix4 p q r t) (ix3 p q j) ?_
  rw [Shape.rowMajor_val_three, Shape.rowMajor_val_four]
  show (p.val * b + q.val) * n + j.val = ((p.val * b + q.val) * c + r.val) * d + t.val
  rw [hj, hn]; ring

/-- The last two axes merged: entry (p, q, j) of the result is entry (p, q, r, t) of the source, j = r·d + t. -/
theorem mergeLast_apply {a b n c d : Nat} (v : (⟨4, ![a, b, c, d]⟩ : Shape).Idx → α)
    (h : (⟨4, ![a, b, c, d]⟩ : Shape).ShapeCasts ⟨3, ![a, b, n]⟩) (hn : n = c * d)
    (p : Fin a) (q : Fin b) (j : Fin n) (r : Fin c) (t : Fin d) (hj : j.val = r.val * d + t.val) :
    shapeCast (⟨3, ![a, b, n]⟩ : Shape) v h (ix3 p q j) = v (ix4 p q r t) := by
  refine shapeCast_apply v h (ix3 p q j) (ix4 p q r t) ?_
  rw [Shape.rowMajor_val_three, Shape.rowMajor_val_four]
  show ((p.val * b + q.val) * c + r.val) * d + t.val = (p.val * b + q.val) * n + j.val
  rw [hj, hn]; ring

/-- The first two axes merged: entry (i, r) of the result is entry (p, q, r) of the source, i = p·b + q. -/
theorem mergeFirst_apply {a b c m : Nat} (v : (⟨3, ![a, b, c]⟩ : Shape).Idx → α)
    (h : (⟨3, ![a, b, c]⟩ : Shape).ShapeCasts ⟨2, ![m, c]⟩)
    (i : Fin m) (r : Fin c) (p : Fin a) (q : Fin b) (hi : i.val = p.val * b + q.val) :
    shapeCast (⟨2, ![m, c]⟩ : Shape) v h (ix2 i r) = v (ix3 p q r) := by
  refine shapeCast_apply v h (ix2 i r) (ix3 p q r) ?_
  rw [Shape.rowMajor_val_three, Shape.rowMajor_val_two]
  show (p.val * b + q.val) * c + r.val = i.val * c + r.val
  rw [hi]

/-- The first axis split: entry (p, q, r) of the result is entry (i, r) of the source, i = p·b + q. -/
theorem splitFirst_apply {a b c m : Nat} (v : (⟨2, ![m, c]⟩ : Shape).Idx → α)
    (h : (⟨2, ![m, c]⟩ : Shape).ShapeCasts ⟨3, ![a, b, c]⟩)
    (p : Fin a) (q : Fin b) (r : Fin c) (i : Fin m) (hi : i.val = p.val * b + q.val) :
    shapeCast (⟨3, ![a, b, c]⟩ : Shape) v h (ix3 p q r) = v (ix2 i r) := by
  refine shapeCast_apply v h (ix3 p q r) (ix2 i r) ?_
  rw [Shape.rowMajor_val_three, Shape.rowMajor_val_two]
  show i.val * c + r.val = (p.val * b + q.val) * c + r.val
  rw [hi]

/-! ## The middle-axes transpose -/

/-- Entry (p, r, q, t) of the transpose is entry (p, q, r, t) of the source. -/
theorem swapMiddle_apply {a b c d : Nat} (v : (⟨4, ![a, b, c, d]⟩ : Shape).Idx → α)
    (h : (⟨4, ![a, b, c, d]⟩ : Shape).Transposes [0, 2, 1, 3] ⟨4, ![a, c, b, d]⟩)
    (p : Fin a) (r : Fin c) (q : Fin b) (t : Fin d) :
    transpose (⟨4, ![a, c, b, d]⟩ : Shape) [0, 2, 1, 3] v h (ix4 p r q t) = v (ix4 p q r t) := by
  refine transpose_apply [0, 2, 1, 3] v h (ix4 p r q t) (ix4 p q r t) fun bx => ?_
  match bx with
  | ⟨0, _⟩ => rfl
  | ⟨1, _⟩ => rfl
  | ⟨2, _⟩ => rfl
  | ⟨3, _⟩ => rfl

/-! ## `broadcast_in_dim` -/

/-- A coordinate kept by a broadcast: itself, or 0 when the axis has extent one (then it is 0 anyway). -/
theorem keep {a : Nat} (p : Fin a) : p.val = if a = 1 then 0 else p.val := by
  by_cases ha : a = 1
  · rw [if_pos ha]; have := p.isLt; omega
  · rw [if_neg ha]

/-- A coordinate on a unit axis of the operand is 0. -/
theorem unit (z : Fin 1) (x : Nat) : z.val = if (1 : Nat) = 1 then 0 else x := by
  rw [if_pos rfl]; have := z.isLt; omega

/-- A scalar to any shape: every entry is the scalar. -/
theorem scalar_apply {t : Shape} (v : (⟨0, ![]⟩ : Shape).Idx → α)
    (h : (⟨0, ![]⟩ : Shape).BroadcastsInDim t (![] : Fin 0 → Fin t.rank)) (j : t.Idx) :
    broadcastInDim t (![] : Fin 0 → Fin t.rank) h v j = v ix0 :=
  broadcastInDim_apply (![] : Fin 0 → Fin t.rank) h v j ix0 (fun ax => ax.elim0)

/-- A vector as `[1,1,n]`: entry (z0, z1, q) is the vector's entry q. -/
theorem vecTo11n_apply {n : Nat} (v : (⟨1, ![n]⟩ : Shape).Idx → α)
    (h : (⟨1, ![n]⟩ : Shape).BroadcastsInDim ⟨3, ![1, 1, n]⟩ (![2] : Fin 1 → Fin 3)) (z0 z1 : Fin 1) (q : Fin n) :
    broadcastInDim (⟨3, ![1, 1, n]⟩ : Shape) (![2] : Fin 1 → Fin 3) h v (ix3 z0 z1 q) = v (ix1 q) := by
  refine broadcastInDim_apply (![2] : Fin 1 → Fin 3) h v (ix3 z0 z1 q) (ix1 q) fun ax => ?_
  match ax with
  | ⟨0, _⟩ => exact keep q

/-- `[1,1,n]` along both leading axes: entry (p, q, r) is the operand's entry (0, 0, r). -/
theorem lead11n_apply {a b n : Nat} (v : (⟨3, ![1, 1, n]⟩ : Shape).Idx → α)
    (h : (⟨3, ![1, 1, n]⟩ : Shape).BroadcastsInDim ⟨3, ![a, b, n]⟩ (![0, 1, 2] : Fin 3 → Fin 3)) (p : Fin a) (q : Fin b) (r : Fin n) :
    broadcastInDim (⟨3, ![a, b, n]⟩ : Shape) (![0, 1, 2] : Fin 3 → Fin 3) h v (ix3 p q r) = v (ix3 (0 : Fin 1) (0 : Fin 1) r) := by
  refine broadcastInDim_apply (![0, 1, 2] : Fin 3 → Fin 3) h v (ix3 p q r) (ix3 (0 : Fin 1) (0 : Fin 1) r) fun ax => ?_
  match ax with
  | ⟨0, _⟩ => exact unit 0 p.val
  | ⟨1, _⟩ => exact unit 0 q.val
  | ⟨2, _⟩ => exact keep r

/-- A matrix as `[a,b,1]`: entry (p, q, z) is the matrix's entry (p, q). -/
theorem matToAb1_apply {a b : Nat} (v : (⟨2, ![a, b]⟩ : Shape).Idx → α)
    (h : (⟨2, ![a, b]⟩ : Shape).BroadcastsInDim ⟨3, ![a, b, 1]⟩ (![0, 1] : Fin 2 → Fin 3)) (p : Fin a) (q : Fin b) (z : Fin 1) :
    broadcastInDim (⟨3, ![a, b, 1]⟩ : Shape) (![0, 1] : Fin 2 → Fin 3) h v (ix3 p q z) = v (ix2 p q) := by
  refine broadcastInDim_apply (![0, 1] : Fin 2 → Fin 3) h v (ix3 p q z) (ix2 p q) fun ax => ?_
  match ax with
  | ⟨0, _⟩ => exact keep p
  | ⟨1, _⟩ => exact keep q

/-- `[a,b,1]` along the last axis: entry (p, q, r) is the operand's entry (p, q, 0). -/
theorem lastAb1_apply {a b c : Nat} (v : (⟨3, ![a, b, 1]⟩ : Shape).Idx → α)
    (h : (⟨3, ![a, b, 1]⟩ : Shape).BroadcastsInDim ⟨3, ![a, b, c]⟩ (![0, 1, 2] : Fin 3 → Fin 3)) (p : Fin a) (q : Fin b) (r : Fin c) :
    broadcastInDim (⟨3, ![a, b, c]⟩ : Shape) (![0, 1, 2] : Fin 3 → Fin 3) h v (ix3 p q r) = v (ix3 p q (0 : Fin 1)) := by
  refine broadcastInDim_apply (![0, 1, 2] : Fin 3 → Fin 3) h v (ix3 p q r) (ix3 p q (0 : Fin 1)) fun ax => ?_
  match ax with
  | ⟨0, _⟩ => exact keep p
  | ⟨1, _⟩ => exact keep q
  | ⟨2, _⟩ => exact unit 0 r.val

/-- A rank-3 array as `[a,1,c,d]`: entry (p, z, r, t) is the array's entry (p, r, t). -/
theorem r3ToA1cd_apply {a c d : Nat} (v : (⟨3, ![a, c, d]⟩ : Shape).Idx → α)
    (h : (⟨3, ![a, c, d]⟩ : Shape).BroadcastsInDim ⟨4, ![a, 1, c, d]⟩ (![0, 2, 3] : Fin 3 → Fin 4))
    (p : Fin a) (z : Fin 1) (r : Fin c) (t : Fin d) :
    broadcastInDim (⟨4, ![a, 1, c, d]⟩ : Shape) (![0, 2, 3] : Fin 3 → Fin 4) h v (ix4 p z r t) = v (ix3 p r t) := by
  refine broadcastInDim_apply (![0, 2, 3] : Fin 3 → Fin 4) h v (ix4 p z r t) (ix3 p r t) fun ax => ?_
  match ax with
  | ⟨0, _⟩ => exact keep p
  | ⟨1, _⟩ => exact keep r
  | ⟨2, _⟩ => exact keep t

/-- `[a,1,c,d]` along axis 1: entry (p, q, r, t) is the operand's entry (p, 0, r, t). -/
theorem axis1A1cd_apply {a b c d : Nat} (v : (⟨4, ![a, 1, c, d]⟩ : Shape).Idx → α)
    (h : (⟨4, ![a, 1, c, d]⟩ : Shape).BroadcastsInDim ⟨4, ![a, b, c, d]⟩ (![0, 1, 2, 3] : Fin 4 → Fin 4))
    (p : Fin a) (q : Fin b) (r : Fin c) (t : Fin d) :
    broadcastInDim (⟨4, ![a, b, c, d]⟩ : Shape) (![0, 1, 2, 3] : Fin 4 → Fin 4) h v (ix4 p q r t) = v (ix4 p (0 : Fin 1) r t) := by
  refine broadcastInDim_apply (![0, 1, 2, 3] : Fin 4 → Fin 4) h v (ix4 p q r t) (ix4 p (0 : Fin 1) r t) fun ax => ?_
  match ax with
  | ⟨0, _⟩ => exact keep p
  | ⟨1, _⟩ => exact unit 0 q.val
  | ⟨2, _⟩ => exact keep r
  | ⟨3, _⟩ => exact keep t

/-- A rank-3 array as `[a,b,c,1]`: entry (p, q, r, z) is the array's entry (p, q, r). -/
theorem r3ToAbc1_apply {a b c : Nat} (v : (⟨3, ![a, b, c]⟩ : Shape).Idx → α)
    (h : (⟨3, ![a, b, c]⟩ : Shape).BroadcastsInDim ⟨4, ![a, b, c, 1]⟩ (![0, 1, 2] : Fin 3 → Fin 4))
    (p : Fin a) (q : Fin b) (r : Fin c) (z : Fin 1) :
    broadcastInDim (⟨4, ![a, b, c, 1]⟩ : Shape) (![0, 1, 2] : Fin 3 → Fin 4) h v (ix4 p q r z) = v (ix3 p q r) := by
  refine broadcastInDim_apply (![0, 1, 2] : Fin 3 → Fin 4) h v (ix4 p q r z) (ix3 p q r) fun ax => ?_
  match ax with
  | ⟨0, _⟩ => exact keep p
  | ⟨1, _⟩ => exact keep q
  | ⟨2, _⟩ => exact keep r

/-- `[a,b,c,1]` along the last axis: entry (p, q, r, t) is the operand's entry (p, q, r, 0). -/
theorem lastAbc1_apply {a b c d : Nat} (v : (⟨4, ![a, b, c, 1]⟩ : Shape).Idx → α)
    (h : (⟨4, ![a, b, c, 1]⟩ : Shape).BroadcastsInDim ⟨4, ![a, b, c, d]⟩ (![0, 1, 2, 3] : Fin 4 → Fin 4))
    (p : Fin a) (q : Fin b) (r : Fin c) (t : Fin d) :
    broadcastInDim (⟨4, ![a, b, c, d]⟩ : Shape) (![0, 1, 2, 3] : Fin 4 → Fin 4) h v (ix4 p q r t) = v (ix4 p q r (0 : Fin 1)) := by
  refine broadcastInDim_apply (![0, 1, 2, 3] : Fin 4 → Fin 4) h v (ix4 p q r t) (ix4 p q r (0 : Fin 1)) fun ax => ?_
  match ax with
  | ⟨0, _⟩ => exact keep p
  | ⟨1, _⟩ => exact keep q
  | ⟨2, _⟩ => exact keep r
  | ⟨3, _⟩ => exact unit 0 t.val

end Cert.Lib.Rank4Layout
-- ==== Proof.FfnOperands.lean ====
/-
  The arrays the kernel's windows read, entry by entry, as functions of the program's arguments.

  Before the launch the host flattens the tokens, x : [8, 4096, 512] read as [32768, 512] (token b * 4096 + s is
  token (b, s)); transposes W1 to [8, 2048] and scales its row q by cos (theta q); transposes W2 to [2048, 512];
  and lays b1 and b2 out as one-row matrices.  The changes of float format in between are the identity over the
  extended reals.
-/
import proofs.«103058_j65481071395349_2_alg».proof.Proof.Gen.KernelIdeal.Frame
import proofs.«103058_j65481071395349_2_alg».proof.Proof.LibBroadcastInDim2
import proofs.«103058_j65481071395349_2_alg».proof.Proof.LibRank4Layout
import Idealize.ShloMosaic.Lib.StableHlo.Run
import Idealize.ShloMosaic.Lib.Pipeline.Value
import Idealize.ShloMosaic.Lib.ValueLayout
import Idealize.ShloMosaic.PureOps.Ideal.Laws

noncomputable section

namespace Cert.Ffn.Operands

open Idealize.ShloMosaic Idealize.ShloMosaic.TcCoe Idealize.ShloMosaic.ValueIdx Idealize.SL.Sem
open Idealize.ShloMosaic.StableHlo Cert.KernelIdeal Cert.KernelIdeal.Gen

variable (m : (ℓ : Loc nD τ sig) → Buf (Elt Ideal) ℓ) (c : Dev nD)

/-- The program's six argument arrays on core c, as functions on their index types. -/
abbrev argX : S8x4096x512.Idx → EReal := m ((c : Thread nD τ).loc main_arg0)
abbrev argTheta : S8.Idx → EReal := m ((c : Thread nD τ).loc main_arg1)
abbrev argW1 : S2048x8.Idx → EReal := m ((c : Thread nD τ).loc main_arg2)
abbrev argB1 : S2048.Idx → EReal := m ((c : Thread nD τ).loc main_arg3)
abbrev argW2 : S512x2048.Idx → EReal := m ((c : Thread nD τ).loc main_arg4)
abbrev argB2 : S512.Idx → EReal := m ((c : Thread nD τ).loc main_arg5)

/-- The flattened tokens: row b * 4096 + s, column e is x at (b, s, e). -/
theorem tokens_apply (n : Fin 32768) (e : Fin 512) (b : Fin 8) (s : Fin 4096) (hn : n.val = b.val * 4096 + s.val) :
    (V m c main_v11 : S32768x512.Idx → EReal) (ix2 n e)
      = (argX m c) (ix3 b s e) := by
  have h : (V m c main_v11 : S32768x512.Idx → EReal)
      = shapeCast S32768x512 (argX m c) shapeCasts_S8x4096x512_S32768x512 := by
    show StableHlo.after hostOps0 (fun b => m (c, b)) (Proc.devRef .tc main_v11) = _
    after_results <;> rfl
  rw [h]
  exact Cert.Lib.Rank4Layout.mergeFirst_apply _ shapeCasts_S8x4096x512_S32768x512 n e b s hn

/-- The first weight block: row q, column f is W1 at (f, q) times cos (theta q). -/
theorem weights1_apply (q : Fin 8) (f : Fin 2048) :
    (V m c main_v5 : S8x2048.Idx → EReal) (ix2 q f)
      = (argW1 m c) (ix2 f q)
        * Ideal.cos ((argTheta m c) (ix1 q)) := by
  have h : (V m c main_v5 : S8x2048.Idx → EReal)
      = truncf (F := Ideal) .bf16 (mulf (φ := .f32)
          (transpose S8x2048 [1, 0] (argW1 m c) transposes_S2048x8_S8x2048_1_0)
          (broadcastInDim S8x2048 ![0, 1] bcast_S8x1_S8x2048_0_1
            (broadcastInDim S8x1 ![0] bcast_S8_S8x1_0
              (Host.cos (F := Ideal) (φ := .f32) (argTheta m c))))) bitsLt_bf16_f32 := by
    show StableHlo.after hostOps0 (fun b => m (c, b)) (Proc.devRef .tc main_v5) = _
    after_results <;> rfl
  rw [h, truncf_apply, mulf_apply, transpose_ix2_apply, BroadcastInDim2.colToMat_apply, BroadcastInDim2.vecToCol_apply]
  rfl

/-- The first bias row: column f is b1 at f. -/
theorem bias1_apply (f : Fin 2048) :
    (V m c main_v9 : S1x2048.Idx → EReal) (ix2 (0 : Fin 1) f)
      = (argB1 m c) (ix1 f) := by
  have h : (V m c main_v9 : S1x2048.Idx → EReal)
      = truncf (F := Ideal) (φ := .f32) .bf16
          (shapeCast S1x2048 (argB1 m c) shapeCasts_S2048_S1x2048) bitsLt_bf16_f32 := by
    show StableHlo.after hostOps0 (fun b => m (c, b)) (Proc.devRef .tc main_v9) = _
    after_results <;> rfl
  rw [h, truncf_apply, shapeCast_a_1a_apply]

/-- The second weight block: row f, column e is W2 at (e, f). -/
theorem weights2_apply (f : Fin 2048) (e : Fin 512) :
    (V m c main_v7 : S2048x512.Idx → EReal) (ix2 f e)
      = (argW2 m c) (ix2 e f) := by
  have h : (V m c main_v7 : S2048x512.Idx → EReal)
      = truncf (F := Ideal) (φ := .f32) .bf16
          (transpose S2048x512 [1, 0] (argW2 m c) transposes_S512x2048_S2048x512_1_0)
          bitsLt_bf16_f32 := by
    show StableHlo.after hostOps0 (fun b => m (c, b)) (Proc.devRef .tc main_v7) = _
    after_results <;> rfl
  rw [h, truncf_apply, transpose_ix2_apply]

/-- The second bias row: column e is b2 at e. -/
theorem bias2_apply (e : Fin 512) :
    (V m c main_v10 : S1x512.Idx → EReal) (ix2 (0 : Fin 1) e)
      = (argB2 m c) (ix1 e) := by
  have h : (V m c main_v10 : S1x512.Idx → EReal)
      = shapeCast S1x512 (argB2 m c) shapeCasts_S512_S1x512 := by
    show StableHlo.after hostOps0 (fun b => m (c, b)) (Proc.devRef .tc main_v10) = _
    after_results <;> rfl
  rw [h, shapeCast_a_1a_apply]

end Cert.Ffn.Operands

end
-- ==== Proof.LibPlainDot.lean ====
/-
  A plain matrix product's contraction sum, for any sizes.  For dimension numbers that contract the left operand's
  second axis with the right operand's first, keep the left operand's first axis and the right operand's second, and
  have no batch axes, the sum over the contraction index of the operands' products at output index (p, q) is
  the sum over k of L (p, k) * R (k, q).  With it, a matmul into the zero accumulator and a host dot_general, read at
  (p, q) on the extended reals, are that sum.
-/
import Idealize.ShloMosaic.PureOps.Ideal.Laws
import Idealize.ShloMosaic.Lib.ValueIdx

noncomputable section

open scoped BigOperators

namespace Cert.Bridge

open Idealize.ShloMosaic Idealize.ShloMosaic.ValueIdx

/-- The contraction shape of plain dimension numbers has one axis, of extent K; the operand indices at output index
    (p, q) and the contraction index whose one coordinate is k are (p, k) and (k, q). -/
theorem plain_idx {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 k q := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- THE CONTRACTION SUM of a plain product at (p, q): the sum over k of L (p, k) * R (k, q). -/
theorem plain_sum {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (L : (⟨2, ![A, K]⟩ : Shape).Idx → EReal) (R : (⟨2, ![K, B]⟩ : Shape).Idx → EReal) (p : Fin A) (q : Fin B) :
    ∑ κ : d.contr.Idx, L (d.lhsIdx (ix2 p q) κ) * R (d.rhsIdx (ix2 p q) κ) = ∑ k : Fin K, L (ix2 p k) * R (ix2 k q) := by
  obtain ⟨hr, hs, h⟩ := plain_idx d hlc hrc hln hrn hlb hrb
  rw [← Equiv.sum_comp (contrEquiv1 d K hr hs).symm]
  exact Finset.sum_congr rfl fun k _ => by rw [(h p q k).1, (h p q k).2]

/-- A matmul of plain dimension numbers into the zero accumulator, read at (p, q) on the extended reals. -/
theorem matmul_zero_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q)
      = ∑ k : Fin K, lhs (ix2 p k) * rhs (ix2 k q) :=
  (Ideal.matmul_constant_zero_apply d prec lhs rhs (ix2 p q)).trans (plain_sum d hlc hrc hln hrn hlb hrb lhs rhs p q)

/-- A host dot_general of plain dimension numbers, read at (p, q) on the extended reals. -/
theorem dotGeneral_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ φ₁)
    (rhs : FVec Ideal ⟨2, ![K, B]⟩ φ₂) (p : Fin A) (q : Fin B) :
    FloatOps.dotGeneral d prec sched lhs rhs (ix2 p q) = ∑ k : Fin K, lhs (ix2 p k) * rhs (ix2 k q) :=
  (Ideal.dotGeneral_apply d prec sched lhs rhs (ix2 p q)).trans (plain_sum d hlc hrc hln hrn hlb hrb lhs rhs p q)

end Cert.Bridge

end
-- ==== Proof.LibRank2Layout.lean ====
/-
  Rank-2 layout operations read at an index given by its two coordinates.

  A column slice `x[:, c:c+1]` of an [a, n] array read at (p, 0) is x at (p, c); a row slice `x[c:c+1, :]` of an
  [n, b] array read at (0, q) is x at (c, q); a column [a, 1] broadcast along lanes to [a, b] reads, at (p, q), the
  column at (p, 0); a row [1, b] broadcast along sublanes to [a, b] reads, at (p, q), the row at (0, q).  Each is one
  instance of the library's read-at-an-index lemma for the operation, with the coordinate arithmetic discharged once
  for all sizes.  Last, two shape casts of one array read at indices with equal row-major positions are equal.
-/
import Idealize.ShloMosaic.Lib.ValueIdx
import Idealize.ShloMosaic.Lib.Pipeline.Value

namespace Idealize.ShloMosaic.Rank2

open Idealize.ShloMosaic Idealize.ShloMosaic.ValueIdx

variable {α : Type}

/-- A one-column slice at column offset `c` fits only if `c` is a column of the array. -/
theorem col_lt {a n c : Nat} (h : (⟨2, ![a, n]⟩ : Shape).Slices ![0, c] ⟨2, ![a, 1]⟩) : c < n := by
  have h1 := h.2 (1 : Fin 2)
  change c + 1 ≤ n at h1
  omega

/-- A one-row slice at row offset `c` fits only if `c` is a row of the array. -/
theorem row_lt {n b c : Nat} (h : (⟨2, ![n, b]⟩ : Shape).Slices ![c, 0] ⟨2, ![1, b]⟩) : c < n := by
  have h0 := h.2 (0 : Fin 2)
  change c + 1 ≤ n at h0
  omega

/-- The column slice `x[:, c:c+1]` at (p, 0) is `x` at (p, c). -/
theorem sliceCol_apply {a n c : Nat} (x : (⟨2, ![a, n]⟩ : Shape).Idx → α)
    (h : (⟨2, ![a, n]⟩ : Shape).Slices ![0, c] ⟨2, ![a, 1]⟩) (p : Fin a) (z : Fin 1) :
    extractStridedSlice (⟨2, ![a, 1]⟩ : Shape) ![0, c] x h (ix2 p z) = x (ix2 p (⟨c, col_lt h⟩ : Fin n)) :=
  extractStridedSlice_apply ![0, c] x h (ix2 p z) (ix2 p (⟨c, col_lt h⟩ : Fin n)) (fun d => match d with
    | ⟨0, _⟩ => by show p.val = 0 + p.val; omega
    | ⟨1, _⟩ => by show c = c + z.val; have := z.isLt; omega)

/-- The row slice `x[c:c+1, :]` at (0, q) is `x` at (c, q). -/
theorem sliceRow_apply {n b c : Nat} (x : (⟨2, ![n, b]⟩ : Shape).Idx → α)
    (h : (⟨2, ![n, b]⟩ : Shape).Slices ![c, 0] ⟨2, ![1, b]⟩) (z : Fin 1) (q : Fin b) :
    extractStridedSlice (⟨2, ![1, b]⟩ : Shape) ![c, 0] x h (ix2 z q) = x (ix2 (⟨c, row_lt h⟩ : Fin n) q) :=
  extractStridedSlice_apply ![c, 0] x h (ix2 z q) (ix2 (⟨c, row_lt h⟩ : Fin n) q) (fun d => match d with
    | ⟨0, _⟩ => by show c = c + z.val; have := z.isLt; omega
    | ⟨1, _⟩ => by show q.val = 0 + q.val; omega)

/-- A column broadcast along the second axis: entry (p, q) is the column's entry (p, 0). -/
theorem bcastCol_apply {a b : Nat} (v : (⟨2, ![a, 1]⟩ : Shape).Idx → α)
    (h : (⟨2, ![a, 1]⟩ : Shape).Broadcasts ⟨2, ![a, b]⟩) (p : Fin a) (q : Fin b) :
    broadcastTo (⟨2, ![a, b]⟩ : Shape) v h (ix2 p q) = v (ix2 p (0 : Fin 1)) :=
  broadcastTo_apply v h (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row broadcast along the first axis: entry (p, q) is the row's entry (0, q). -/
theorem bcastRow_apply {a b : Nat} (v : (⟨2, ![1, b]⟩ : Shape).Idx → α)
    (h : (⟨2, ![1, b]⟩ : Shape).Broadcasts ⟨2, ![a, b]⟩) (p : Fin a) (q : Fin b) :
    broadcastTo (⟨2, ![a, b]⟩ : Shape) v h (ix2 p q) = v (ix2 (0 : Fin 1) q) :=
  broadcastTo_apply v h (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.Rank2

namespace Idealize.ShloMosaic

/-- Two shape casts of one array agree at indices with the same row-major position. -/
theorem shapeCast_eq_shapeCast {α : Type} {s t u : Shape} (x : s.Idx → α) (h : s.ShapeCasts t) (h' : s.ShapeCasts u)
    (j : t.Idx) (k : u.Idx) (e : (t.rowMajor j).val = (u.rowMajor k).val) :
    shapeCast t x h j = shapeCast u x h' k := by
  unfold shapeCast
  exact congrArg x (Shape.reshapeEquiv_eq_of_rowMajor h ((Shape.rowMajor_reshapeEquiv h' k).trans e.symm))

end Idealize.ShloMosaic
-- ==== Proof.FfnBody.lean ====
/-
  What the kernel body stores, entry by entry.

  On a block of 1024 tokens the body takes the first eight coordinates of each token, applies cos, multiplies the
  [1024, 8] result by the [8, 2048] weight block, adds the [1, 2048] bias row to every token, rectifies, multiplies
  by the [2048, 512] weight block and adds the [1, 512] bias row.  Over the extended reals a change of float format
  is the identity and a matrix product into a zero accumulator is the plain sum of products, so entry (p, e) of the
  stored block is
      sum over f of max (sum over q of cos (X p q) * A q f  +  B1 0 f) 0 * C f e  +  B2 0 e.
-/
import proofs.«103058_j65481071395349_2_alg».proof.Proof.Gen.KernelIdeal.Skeleton
import proofs.«103058_j65481071395349_2_alg».proof.Proof.FfnSpec
import proofs.«103058_j65481071395349_2_alg».proof.Proof.LibPlainDot
import proofs.«103058_j65481071395349_2_alg».proof.Proof.LibRank2Layout
import Idealize.ShloMosaic.Lib.Pipeline.Value

noncomputable section

open scoped BigOperators

namespace Cert.Ffn.Body

open Idealize.ShloMosaic Idealize.ShloMosaic.ValueIdx Cert.KernelIdeal Cert.KernelIdeal.Gen

/-- A token block's function: the head on 1024 tokens whose first eight coordinates are the first eight columns of
    X, with weights A, C and bias rows B1, B2 already laid out as the body reads them. -/
def block (X : S1024x512.Idx → EReal) (A : S8x2048.Idx → EReal) (B1 : S1x2048.Idx → EReal)
    (C : S2048x512.Idx → EReal) (B2 : S1x512.Idx → EReal) (p : Fin 1024) (e : Fin 512) : EReal :=
  (∑ f : Fin 2048, max ((∑ q : Fin 8, Ideal.cos (X (ix2 p (col q))) * A (ix2 q f)) + B1 (ix2 (0 : Fin 1) f)) 0
      * C (ix2 f e)) + B2 (ix2 (0 : Fin 1) e)

/-- The slice of the first eight columns, after cos: entry (p, q) is cos of X at (p, q). -/
theorem measured_apply (X : FVec Ideal S1024x512 .f32) (p : Fin 1024) (q : Fin 8) :
    (cos (F := Ideal) (φ := .f32) (extractStridedSlice S1024x8 ![0, 0] X slices_S1024x512_o0_0_S1024x8)) (ix2 p q)
      = Ideal.cos (X (ix2 p (col q))) := by
  show Ideal.cos (extractStridedSlice S1024x8 ![0, 0] X slices_S1024x512_o0_0_S1024x8 (ix2 p q)) = _
  rw [extractStridedSlice_apply ![0, 0] X slices_S1024x512_o0_0_S1024x8 (ix2 p q) (ix2 p (col q))
    (fun a => match a with
      | ⟨0, _⟩ => by show p.val = 0 + p.val; omega
      | ⟨1, _⟩ => by show q.val = 0 + q.val; omega)]

/-- THE STORED BLOCK, entry by entry. -/
theorem payload_apply (X : Vec Ideal S1024x512 .f32) (A : Vec Ideal S8x2048 .bf16) (B1 : Vec Ideal S1x2048 .bf16)
    (C : Vec Ideal S2048x512 .bf16) (B2 : Vec Ideal S1x512 .f32) (p : Fin 1024) (e : Fin 512) :
    k0_pay1 (F := Ideal) X A B1 C B2 (ix2 p e) = block X A B1 C B2 p e := by
  unfold k0_pay1 block
  simp only [shapeCast_self, matmul]
  rw [addf_apply, Cert.Bridge.matmul_zero_plain _ rfl rfl rfl rfl rfl rfl, Rank2.bcastRow_apply]
  -- the second product is a sum over the 2048 hidden units
  refine congrArg (fun z => z + B2 (ix2 (0 : Fin 1) e)) (Finset.sum_congr rfl fun f _ => ?_)
  rw [maximumf_apply, addf_apply, truncf_apply, Cert.Bridge.matmul_zero_plain _ rfl rfl rfl rfl rfl rfl,
    Rank2.bcastRow_apply, broadcast_apply, Ideal.ofBits_def, ofBits_zero_bf16]
  -- the first product is a sum over the eight measured coordinates
  refine congrArg (fun z => max (z + B1 (ix2 (0 : Fin 1) f)) 0 * C (ix2 f e)) (Finset.sum_congr rfl fun q _ => ?_)
  rw [truncf_apply, measured_apply]

end Cert.Ffn.Body

end
-- ==== Proof.FfnBlocks.lean ====
/-
  From the blocks the grid points write back to the whole flattened result.

  The grid has 32 points; point t reads rows 1024 t .. 1024 t + 1023 of the flattened tokens and the whole of the
  two weight blocks and the two bias rows, and writes rows 1024 t .. 1024 t + 1023 of the [32768, 512] result.
  So what point t writes back is the block, at rows 1024 t onward, of ONE function of the five operand arrays:
  row n, column e of the result depends on row n of the tokens only.  The 32 blocks tile the result, hence the
  result array after the run is that function.
-/
import proofs.«103058_j65481071395349_2_alg».proof.Proof.Gen.KernelIdeal.Frame
import proofs.«103058_j65481071395349_2_alg».proof.Proof.FfnBody
import Idealize.ShloMosaic.Lib.Pipeline.Value

set_option maxRecDepth 16384

noncomputable section

open scoped BigOperators

namespace Cert.Ffn.Blocks

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

theorem origin : (![0, 0] : Fin 2 → Nat) = fun _ => 0 := funext fun a => by fin_cases a <;> rfl

/-- Row n, column e of the flattened result, from the five operand arrays: the head on token n. -/
def flat (X : S32768x512.Idx → EReal) (A : S8x2048.Idx → EReal) (B1 : S1x2048.Idx → EReal)
    (C : S2048x512.Idx → EReal) (B2 : S1x512.Idx → EReal) (n : Fin 32768) (e : Fin 512) : EReal :=
  (∑ f : Fin 2048, max ((∑ q : Fin 8, Ideal.cos (X (ix2 n (col q))) * A (ix2 q f)) + B1 (ix2 (0 : Fin 1) f)) 0
      * C (ix2 f e)) + B2 (ix2 (0 : Fin 1) e)

/-- The flattened result as one array, of the operand arrays as the launch finds them. -/
def result (c : Dev nD) : S32768x512.Idx → EReal := fun i =>
  flat (V m c main_v11) (V m c main_v5) (V m c main_v9) (V m c main_v7) (V m c main_v10) (i 0) (i 1)

/-- The block index maps over the grid: the token window moves with the output window along the rows, every other
    window stays at the origin, and the output's block row is one of 0 .. 31. -/
theorem index_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 31 ∧ win0_5.index t (1 : Fin 2) = 0 :=
  (by decide +kernel : ∀ t : Fin grid0.N, _)

/-- Every block row 0 .. 31 of the result is some point's. -/
theorem index_onto : ∀ r : Fin 32, ∃ t : Fin cfg0.N, win0_5.index t = ![r.val, 0] :=
  (by decide +kernel : ∀ r : Fin 32, ∃ t : Fin grid0.N, win0_5.index t = ![r.val, 0])

/-- WHAT POINT t WRITES BACK is block t of the result. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5]
  unfold out0_5
  rw [View.canon_unit_zero origin]
  simp only [View.ld_unit_zero (S := S1024x512) origin, View.ld_unit_zero (S := S8x2048) origin,
    View.ld_unit_zero (S := S1x2048) origin, View.ld_unit_zero (S := S2048x512) origin,
    View.ld_unit_zero (S := S1x512) origin]
  obtain ⟨e0, e1, e2, e3, e4, e5, e6, e7, e8, e9, e10, e11⟩ := index_facts t
  refine funext fun (j : S1024x512.Idx) => ?_
  obtain ⟨p, e, rfl⟩ : ∃ (p : Fin 1024) (e : Fin 512), j = ix2 p e := ⟨j 0, j 1, eq_ix2 j⟩
  refine (Body.payload_apply (iblk m c 0 t) (iblk m c 1 t) (iblk m c 2 t) (iblk m c 3 t) (iblk m c 4 t) p e).trans ?_
  have hp : p.val < 1024 := p.isLt
  -- the row of the result this entry is
  let n : Fin 32768 := ⟨win0_5.index t (0 : Fin 2) * 1024 + p.val, by omega⟩
  have h5 : ((cfg0.win 5).blk t).view.emb (ix2 p e) = ix2 n e := by
    funext a; apply Fin.ext
    match a with
    | ⟨0, _⟩ => show win0_5.index t (0 : Fin 2) * 1024 + 1 * p.val = win0_5.index t (0 : Fin 2) * 1024 + p.val; omega
    | ⟨1, _⟩ => show win0_5.index t (1 : Fin 2) * 512 + 1 * e.val = e.val; omega
  have h0 : ∀ q : Fin 8, ((cfg0.win 0).blk t).view.emb (ix2 p (col q)) = ix2 n (col q) := fun q => by
    funext a; apply Fin.ext
    match a with
    | ⟨0, _⟩ => show win0_0.index t (0 : Fin 2) * 1024 + 1 * p.val = win0_5.index t (0 : Fin 2) * 1024 + p.val; omega
    | ⟨1, _⟩ => show win0_0.index t (1 : Fin 2) * 512 + 1 * (col q).val = (col q).val; omega
  have h1 : ∀ (q : Fin 8) (f : Fin 2048), ((cfg0.win 1).blk t).view.emb (ix2 q f) = ix2 q f := fun q f => by
    funext a; apply Fin.ext
    match a with
    | ⟨0, _⟩ => show win0_1.index t (0 : Fin 2) * 8 + 1 * q.val = q.val; omega
    | ⟨1, _⟩ => show win0_1.index t (1 : Fin 2) * 2048 + 1 * f.val = f.val; omega
  have h2 : ∀ f : Fin 2048, ((cfg0.win 2).blk t).view.emb (ix2 (0 : Fin 1) f) = ix2 (0 : Fin 1) f := fun f => by
    funext a; apply Fin.ext
    match a with
    | ⟨0, _⟩ => show win0_2.index t (0 : Fin 2) * 1 + 1 * 0 = 0; omega
    | ⟨1, _⟩ => show win0_2.index t (1 : Fin 2) * 2048 + 1 * f.val = f.val; omega
  have h3 : ∀ f : Fin 2048, ((cfg0.win 3).blk t).view.emb (ix2 f e) = ix2 f e := fun f => by
    funext a; apply Fin.ext
    match a with
    | ⟨0, _⟩ => show win0_3.index t (0 : Fin 2) * 2048 + 1 * f.val = f.val; omega
    | ⟨1, _⟩ => show win0_3.index t (1 : Fin 2) * 512 + 1 * e.val = e.val; omega
  have h4 : ((cfg0.win 4).blk t).view.emb (ix2 (0 : Fin 1) e) = ix2 (0 : Fin 1) e := by
    funext a; apply Fin.ext
    match a with
    | ⟨0, _⟩ => show win0_4.index t (0 : Fin 2) * 1 + 1 * 0 = 0; omega
    | ⟨1, _⟩ => show win0_4.index t (1 : Fin 2) * 512 + 1 * e.val = e.val; omega
  show (∑ f : Fin 2048, max ((∑ q : Fin 8, Ideal.cos (V m c main_v11 (((cfg0.win 0).blk t).view.emb (ix2 p (col q))))
        * V m c main_v5 (((cfg0.win 1).blk t).view.emb (ix2 q f)))
        + V m c main_v9 (((cfg0.win 2).blk t).view.emb (ix2 (0 : Fin 1) f))) 0
        * V m c main_v7 (((cfg0.win 3).blk t).view.emb (ix2 f e)))
        + V m c main_v10 (((cfg0.win 4).blk t).view.emb (ix2 (0 : Fin 1) e))
      = result m c (((cfg0.win 5).blk t).view.emb (ix2 p e))
  rw [h5, h4]
  simp only [h0, h1, h2, h3]
  rfl

/-- An index of the result is in point t's block iff each coordinate is in the block's range on its axis. -/
theorem mem_blk (t : Fin cfg0.N) (i : S32768x512.Idx) :
    i ∈ ((cfg0.win 5).blk t).view.set ↔ ∀ a : Fin 2, win0_5.index t a * S1024x512.size a ≤ (i a).val
      ∧ (i a).val < win0_5.index t a * S1024x512.size a + S1024x512.size a := by
  show i ∈ ((View.whole main_v12).slice (win0_5.rect t)).set ↔ _
  rw [View.set_slice_whole, Rect.mem_set_unit]
  exact Iff.rfl

/-- Every entry of the result is in the block of the point whose block row is its row divided by 1024. -/
theorem covered (i : S32768x512.Idx) :
    ∃ t : Fin cfg0.N, (cfg0.win 5).flush t = true ∧ i ∈ ((cfg0.win 5).blk t).view.set := by
  have hi0 : (i 0).val < 32768 := (i 0).isLt
  have hi1 : (i 1).val < 512 := (i 1).isLt
  obtain ⟨t, ht⟩ := index_onto ⟨(i 0).val / 1024, by omega⟩
  have q0 : win0_5.index t (0 : Fin 2) = (i 0).val / 1024 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 512 ≤ (i 1).val ∧ (i 1).val < win0_5.index t (1 : Fin 2) * 512 + 512
    omega

/-- THE RESULT ARRAY after the run. -/
theorem final (c : Dev nD) : (dats m 0 c).arrAt 5 cfg0.N = result m c :=
  (dats m 0 c).arrAt_eq_of_cover 5 (result m c) (fun t _ => flushed_eq m c t) (covered)

end Cert.Ffn.Blocks

end
-- ==== Proof.FfnKernel.lean ====
/-
  The kernel program's run, read as the feed-forward head.

  Row b * 4096 + s of the flattened result is the head on token (b, s): the flattened tokens' row is x at (b, s, .),
  the first weight block's entry (q, f) is W1 f q * cos (theta q) — the measurement's second factor moved onto the
  weight, which does not change the product of the three —, the second weight block's entry (f, e) is W2 e f, and
  the bias rows are b1 and b2.  The host line after the launch reads the [32768, 512] result as [8, 4096, 512], so
  entry (b, s, e) of the program's result is row b * 4096 + s, column e.
-/
import proofs.«103058_j65481071395349_2_alg».proof.Proof.Gen.KernelIdeal.Frame
import proofs.«103058_j65481071395349_2_alg».proof.Proof.FfnSpec
import proofs.«103058_j65481071395349_2_alg».proof.Proof.FfnOperands
import proofs.«103058_j65481071395349_2_alg».proof.Proof.FfnBlocks
import proofs.«103058_j65481071395349_2_alg».proof.Proof.LibRank4Layout
import Idealize.ShloMosaic.Lib.StableHlo.Run
import Idealize.ShloMosaic.Lib.Pipeline.Value

noncomputable section

open scoped BigOperators

namespace Cert.Ffn.Kernel

open Idealize.ShloMosaic Idealize.ShloMosaic.TcCoe Idealize.ShloMosaic.ValueIdx Idealize.SL.Sem
open Idealize.ShloMosaic.StableHlo Cert.KernelIdeal Cert.KernelIdeal.Gen Cert.Ffn.Operands

variable (m : (ℓ : Loc nD τ sig) → Buf (Elt Ideal) ℓ) (ρ : Dev nD → PrngReg)

/-- The head of the program's arguments on core c. -/
abbrev head (c : Dev nD) : S8x4096x512.Idx → EReal :=
  ffn (argX m c) (argTheta m c) (argW1 m c) (argB1 m c) (argW2 m c) (argB2 m c)

/-- Row b * 4096 + s, column e of the flattened result is the head at (b, s, e). -/
theorem result_apply (c : Dev nD) (n : Fin 32768) (e : Fin 512) (b : Fin 8) (s : Fin 4096)
    (hn : n.val = b.val * 4096 + s.val) : Blocks.result m c (ix2 n e) = head m c (ix3 b s e) := by
  show (∑ f : Fin 2048, max ((∑ q : Fin 8, Ideal.cos ((V m c main_v11 : S32768x512.Idx → EReal) (ix2 n (col q)))
        * (V m c main_v5 : S8x2048.Idx → EReal) (ix2 q f)) + (V m c main_v9 : S1x2048.Idx → EReal) (ix2 (0 : Fin 1) f)) 0
        * (V m c main_v7 : S2048x512.Idx → EReal) (ix2 f e)) + (V m c main_v10 : S1x512.Idx → EReal) (ix2 (0 : Fin 1) e)
      = (∑ f : Fin 2048, hidden (argX m c) (argTheta m c) (argW1 m c) (argB1 m c) b s f * argW2 m c (ix2 e f))
        + argB2 m c (ix1 e)
  rw [bias2_apply]
  refine congrArg (fun z => z + argB2 m c (ix1 e)) (Finset.sum_congr rfl fun f _ => ?_)
  rw [weights2_apply, bias1_apply, ← hidden_folded]
  refine congrArg (fun z => max (z + argB1 m c (ix1 f)) 0 * argW2 m c (ix2 e f)) (Finset.sum_congr rfl fun q _ => ?_)
  rw [tokens_apply m c n (col q) b s hn, weights1_apply]

/-- The flattened result read as [8, 4096, 512] is the head. -/
theorem unflatten_eq (c : Dev nD) :
    shapeCast S8x4096x512 (Blocks.result m c) shapeCasts_S32768x512_S8x4096x512 = head m c := by
  funext i
  obtain ⟨b, s, e, rfl⟩ : ∃ (b : Fin 8) (s : Fin 4096) (e : Fin 512), i = ix3 b s e := ⟨i 0, i 1, i 2, eq_ix3 i⟩
  have hb : b.val < 8 := b.isLt
  have hs : s.val < 4096 := s.isLt
  rw [Cert.Lib.Rank4Layout.splitFirst_apply (Blocks.result m c) shapeCasts_S32768x512_S8x4096x512 b s e
    (⟨b.val * 4096 + s.val, by omega⟩ : Fin 32768) rfl]
  exact result_apply m c _ e b s rfl

/-- The program's result buffer after the line that follows the launch. -/
theorem tail_eq (c : Dev nD) :
    (Pipeline.afterTail₀ cfgs (dats m) 0 (V0 m) [hostOps1] c main_v13 : S8x4096x512.Idx → EReal) = head m c := by
  have hw : (Pipeline.withArrays (cfgs 0).spec c (V0 m c) (fun w => (dats m 0 c).arrAt w (cfgs 0).N)
      (Proc.devRef .tc main_v12) : S32768x512.Idx → EReal) = Blocks.result m c :=
    (Pipeline.withArrays_arr spec0 launch0.win.arr_inj c _ _ 5).trans (Blocks.final m c)
  unfold Pipeline.afterTail₀
  show StableHlo.after hostOps1 _ (Proc.devRef .tc main_v13) = _
  after_results
  exact (congrArg (fun z : S32768x512.Idx → EReal => shapeCast S8x4096x512 z shapeCasts_S32768x512_S8x4096x512) hw).trans
    (unflatten_eq m c)

/-- THE RUN: every weakly fair execution of the kernel program terminates with its result at the head of its
    arguments and its arguments as they were. -/
theorem run : θ_run defs (onTc (τ := τ) (main (F := Ideal))) ⟨m, fun _ => 0, ρ⟩ fun r => ∀ c : Dev nD,
      r.2.mem ((c.tc : Thread nD τ).loc main_v13) = head m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v13 (Pipeline.mem_restRefs_of main_v13 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.Ffn.Kernel

end
-- ==== Proof.lean ====
/-
  The kernel computes the feed-forward head of the reference, entry by entry, over the extended reals.

  Both programs take x : [8, 4096, 512], theta : [8], W1 : [2048, 8], b1 : [2048], W2 : [512, 2048], b2 : [512] and
  return, at (b, s, e),
      sum over f of max (sum over q < 8 of cos (x b s q) * cos (theta q) * W1 f q + b1 f) 0 * W2 e f + b2 e
  (Proof/FfnSpec.lean).  The reference computes it in this form (Proof/FfnReference.lean, over the generated
  read-at-an-index lemmas of its run).  The kernel program scales the transposed W1 by cos theta on the host, flattens
  the tokens to [32768, 512], and runs 32 grid points of 1024 tokens each; every point computes
  cos (x) @ (W1^T * cos theta), adds b1, rectifies, multiplies by W2^T and adds b2 (Proof/FfnBody.lean), the blocks tile
  the flattened result (Proof/FfnBlocks.lean), and the host reads it back as [8, 4096, 512] (Proof/FfnKernel.lean,
  over the operand arrays of Proof/FfnOperands.lean).  The two forms differ only in where the factor cos (theta q)
  sits in a product of three extended reals, and that product does not depend on grouping or order; changes of
  float format are the identity and both matrix products are plain sums.  No input needs to be finite for this: the
  precondition is not used by the value part.

  The three frames are the generated ones (the reference's is its generated run with the result dropped), and the
  kernel's idealization rewrote nothing, so that conjunct is trivial.
-/
import proofs.«103058_j65481071395349_2_alg».proof.Defs
import proofs.«103058_j65481071395349_2_alg».proof.Proof.Gen.Kernel
import proofs.«103058_j65481071395349_2_alg».proof.Proof.Gen.Kernel.Skeleton
import proofs.«103058_j65481071395349_2_alg».proof.Proof.Gen.Kernel.Launch
import proofs.«103058_j65481071395349_2_alg».proof.Proof.Gen.Kernel.Points
import proofs.«103058_j65481071395349_2_alg».proof.Proof.Gen.Kernel.Frame
import proofs.«103058_j65481071395349_2_alg».proof.Proof.Gen.KernelIdeal
import proofs.«103058_j65481071395349_2_alg».proof.Proof.Gen.KernelIdeal.Skeleton
import proofs.«103058_j65481071395349_2_alg».proof.Proof.Gen.KernelIdeal.Launch
import proofs.«103058_j65481071395349_2_alg».proof.Proof.Gen.KernelIdeal.Points
import proofs.«103058_j65481071395349_2_alg».proof.Proof.Gen.KernelIdeal.Frame
import proofs.«103058_j65481071395349_2_alg».proof.Proof.Gen.ReferenceIdeal
import proofs.«103058_j65481071395349_2_alg».proof.Proof.Gen.ReferenceIdeal.Run
import proofs.«103058_j65481071395349_2_alg».proof.Proof.Gen.ReferenceIdeal.Read
import proofs.«103058_j65481071395349_2_alg».proof.Proof.Gen.Pre_finite_inputs
import proofs.«103058_j65481071395349_2_alg».proof.Proof.FfnReference
import proofs.«103058_j65481071395349_2_alg».proof.Proof.FfnKernel
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program over the extended reals. -/
theorem frame_kernelIdeal : Cert.frame_KernelIdeal := fun m ρ _ => Cert.KernelIdeal.Gen.frame m ρ

/-- And the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the head of those arguments. -/
theorem algebraic : Cert.algebraic_KernelIdeal_ReferenceIdeal := by
  intro m ρ m' ρ' _ hagree
  refine ⟨fun c => Cert.Ffn.Kernel.head m c, Cert.Ffn.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v14_eq _ _ _ _ _ _).trans (Cert.Ffn.Reference.stage_eq_ffn _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
